-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.sign_bit.Statement Cert.KernelIdeal.S8x128000 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x100000 : Shape := ⟨2, ![8, 100000]⟩
abbrev S3200000 : Shape := ⟨1, ![3200000]⟩
abbrev S100000 : Shape := ⟨1, ![100000]⟩
abbrev S_ : Shape := ⟨0, ![]⟩

class Facts : Prop where
  bcast_S_S8x100000 : S_.BroadcastsInDim S8x100000 (![] : Fin 0 → Fin S8x100000.rank)
  reducesTo_S8x100000_S_d0_1 : S8x100000.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg6 : FVec F S8x100000 .f32) (main_arg7 : FVec F S100000 .f32) (main_arg8 : FVec F S100000 .f32) (main_v13 : IVec S_ 1) (main_v16 : IVec S3200000 1) : IVec S_ 1 :=
  let main_c_5 : IVec S_ 1 := constantI S_ 1 1#1
  let main_v17 : IVec S_ 1 := (fun x v => Host.reduce IntOp.andi x v reducesTo_S3200000_S_d0 h_S_) main_v16 main_c_5
  let main_v18 : IVec S_ 1 := andi main_v13 main_v17
  let main_v19 : FVec F S8x100000 .f32 := Host.absf main_arg6
  let main_cst_6 : FVec F S_ .f32 := constant S_ .f32 0x7F800000#32
  let main_v20 : FVec F S8x100000 .f32 := broadcastInDim S8x100000 ![] bcast_S_S8x100000 main_cst_6
  let main_v21 : IVec S8x100000 1 := cmpf .olt main_v19 main_v20
  let main_c_7 : IVec S_ 1 := constantI S_ 1 1#1
  let main_v22 : IVec S_ 1 := (fun x v => Host.reduce IntOp.andi x v reducesTo_S8x100000_S_d0_1 h_S_) main_v21 main_c_7
  let main_v23 : IVec S_ 1 := andi main_v18 main_v22
  let main_v24 : FVec F S100000 .f32 := Host.absf main_arg7
  let main_cst_8 : FVec F S_ .f32 := constant S_ .f32 0x7F800000#32
  let main_v25 : FVec F S100000 .f32 := broadcastInDim S100000 ![] bcast_S_S100000 main_cst_8
  let main_v26 : IVec S100000 1 := cmpf .olt main_v24 main_v25
  let main_c_9 : IVec S_ 1 := constantI S_ 1 1#1
  let main_v27 : IVec S_ 1 := (fun x v => Host.reduce IntOp.andi x v reducesTo_S100000_S_d0 h_S_) main_v26 main_c_9
  let main_v28 : IVec S_ 1 := andi main_v23 main_v27
  let main_v29 : FVec F S100000 .f32 := Host.absf main_arg8
  let main_cst_10 : FVec F S_ .f32 := constant S_ .f32 0x7F800000#32
  let main_v30 : FVec F S100000 .f32 := broadcastInDim S100000 ![] bcast_S_S100000 main_cst_10
  let main_v31 : IVec S100000 1 := cmpf .olt main_v29 main_v30
  let main_c_11 : IVec S_ 1 := constantI S_ 1 1#1
  let main_v32 : IVec S_ 1 := (fun x v => Host.reduce IntOp.andi x v reducesTo_S100000_S_d0 h_S_) main_v31 main_c_11
  let main_v33 : IVec S_ 1 := andi main_v28 main_v32
  main_v33

def fn {F : FTy → Type} [FloatOps F] (main_arg0 : FVec F S8x100000 .f32) (main_arg1 : FVec F S8x100000 .f32) (main_arg2 : FVec F S8x100000 .f32) (main_arg3 : IVec S3200000 32) (main_arg4 : IVec S3200000 32) (main_arg5 : FVec F S3200000 .f32) (main_arg6 : FVec F S8x100000 .f32) (main_arg7 : FVec F S100000 .f32) (main_arg8 : FVec F S100000 .f32) : IVec S_ 1 :=
  let main_v0 : FVec F S8x100000 .f32 := Host.absf main_arg0
  let main_cst : FVec F S_ .f32 := constant S_ .f32 0x7F800000#32
  let main_v1 : FVec F S8x100000 .f32 := broadcastInDim S8x100000 ![] bcast_S_S8x100000 main_cst
  let main_v2 : IVec S8x100000 1 := cmpf .olt main_v0 main_v1
  let main_c : IVec S_ 1 := constantI S_ 1 1#1
  let main_v3 : IVec S_ 1 := (fun x v => Host.reduce IntOp.andi x v reducesTo_S8x100000_S_d0_1 h_S_) main_v2 main_c
  let main_v4 : FVec F S8x100000 .f32 := Host.absf main_arg1
  let main_cst_0 : FVec F S_ .f32 := constant S_ .f32 0x7F800000#32
  let main_v5 : FVec F S8x100000 .f32 := broadcastInDim S8x100000 ![] bcast_S_S8x100000 main_cst_0
  let main_v6 : IVec S8x100000 1 := cmpf .olt main_v4 main_v5
  let main_c_1 : IVec S_ 1 := constantI S_ 1 1#1
  let main_v7 : IVec S_ 1 := (fun x v => Host.reduce IntOp.andi x v reducesTo_S8x100000_S_d0_1 h_S_) main_v6 main_c_1
  let main_v8 : IVec S_ 1 := andi main_v3 main_v7
  let main_v9 : FVec F S8x100000 .f32 := Host.absf main_arg2
  let main_cst_2 : FVec F S_ .f32 := constant S_ .f32 0x7F800000#32
  let main_v10 : FVec F S8x100000 .f32 := broadcastInDim S8x100000 ![] bcast_S_S8x100000 main_cst_2
  let main_v11 : IVec S8x100000 1 := cmpf .olt main_v9 main_v10
  let main_c_3 : IVec S_ 1 := constantI S_ 1 1#1
  let main_v12 : IVec S_ 1 := (fun x v => Host.reduce IntOp.andi x v reducesTo_S8x100000_S_d0_1 h_S_) main_v11 main_c_3
  let main_v13 : IVec S_ 1 := andi main_v8 main_v12
  let main_v14 : FVec F S3200000 .f32 := Host.absf main_arg5
  let main_cst_4 : FVec F S_ .f32 := constant S_ .f32 0x7F800000#32
  let main_v15 : FVec F S3200000 .f32 := broadcastInDim S3200000 ![] bcast_S_S3200000 main_cst_4
  let main_v16 : IVec S3200000 1 := cmpf .olt main_v14 main_v15
  fn_part1 (F := F) main_arg6 main_arg7 main_arg8 main_v13 main_v16
-- ==== Kernel.lean ====
abbrev S8x100000 : Shape := ⟨2, ![8, 100000]⟩
abbrev S3200000 : Shape := ⟨1, ![3200000]⟩
abbrev S100000 : Shape := ⟨1, ![100000]⟩
abbrev S_ : Shape := ⟨0, ![]⟩
abbrev S3200000x1 : Shape := ⟨2, ![3200000, 1]⟩
abbrev S8x3200000 : Shape := ⟨2, ![8, 3200000]⟩
abbrev S8x128000 : Shape := ⟨2, ![8, 128000]⟩
abbrev S128000 : Shape := ⟨1, ![128000]⟩
abbrev S1x128000 : Shape := ⟨2, ![1, 128000]⟩
abbrev S1x100000 : Shape := ⟨2, ![1, 100000]⟩

abbrev nBuf : Space → Nat
  | .hbm => 39
  | .vmem => 14
  | .smem => 0
  | _ => 0

abbrev bufTy : (tb : Table) → Fin (tcTables nBuf tb) → BufTy
  | .hbm, ⟨0, _⟩ => ⟨S8x100000, .f32⟩
  | .hbm, ⟨1, _⟩ => ⟨S8x100000, .f32⟩
  | .hbm, ⟨2, _⟩ => ⟨S8x100000, .f32⟩
  | .hbm, ⟨3, _⟩ => ⟨S3200000, .i32⟩
  | .hbm, ⟨4, _⟩ => ⟨S3200000, .i32⟩
  | .hbm, ⟨5, _⟩ => ⟨S3200000, .f32⟩
  | .hbm, ⟨6, _⟩ => ⟨S8x100000, .f32⟩
  | .hbm, ⟨7, _⟩ => ⟨S100000, .f32⟩
  | .hbm, ⟨8, _⟩ => ⟨S100000, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S8x3200000, .f32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S8x3200000, .f32⟩
  | .hbm, ⟨27, _⟩ => ⟨S8x3200000, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S8x100000, .f32⟩
  | .hbm, ⟨37, _⟩ => ⟨S8x100000, .f32⟩
  | .hbm, ⟨38, _⟩ => ⟨S8x100000, .f32⟩
  | .local _ .vmem, ⟨0, _⟩ => ⟨S8x128000, .f32⟩
  | .local _ .vmem, ⟨1, _⟩ => ⟨S8x128000, .f32⟩
  | .local _ .vmem, ⟨2, _⟩ => ⟨S8x128000, .f32⟩
  | .local _ .vmem, ⟨3, _⟩ => ⟨S8x128000, .f32⟩
  | .local _ .vmem, ⟨4, _⟩ => ⟨S128000, .f32⟩
  | .local _ .vmem, ⟨5, _⟩ => ⟨S128000, .f32⟩
  | .local _ .vmem, ⟨6, _⟩ => ⟨S8x128000, .f32⟩
  | .local _ .vmem, ⟨7, _⟩ => ⟨S8x128000, .f32⟩
  | .local _ .vmem, ⟨8, _⟩ => ⟨S8x100000, .f32⟩
  | .local _ .vmem, ⟨9, _⟩ => ⟨S8x100000, .f32⟩
  | .local _ .vmem, ⟨10, _⟩ => ⟨S100000, .f32⟩
  | .local _ .vmem, ⟨11, _⟩ => ⟨S100000, .f32⟩
  | .local _ .vmem, ⟨12, _⟩ => ⟨S8x100000, .f32⟩
  | .local _ .vmem, ⟨13, _⟩ => ⟨S8x100000, .f32⟩
  | _, _ => ⟨S8x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [BitOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x100000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x100000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S100000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S100000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x100000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x100000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  inb_S8x128000_S8x128000_0_0 : ∀ a, (![0, 0] : Fin 2 → Nat) a + S8x128000.size a ≤ S8x128000.size a
  h_S8x128000 : 0 < S8x128000.numel
  shapeCasts_S8x128000_S8x128000 : S8x128000.ShapeCasts S8x128000
  inb_S128000_S128000_0 : ∀ a, (![0] : Fin 1 → Nat) a + S128000.size a ≤ S128000.size a
  h_S128000 : 0 < S128000.numel
  shapeCasts_S128000_S1x128000 : S128000.ShapeCasts S1x128000
  shapeCasts_S1x128000_S1x128000 : S1x128000.ShapeCasts S1x128000
  broadcasts_S1x128000_S8x128000 : S1x128000.Broadcasts S8x128000
  inb_S8x100000_S8x100000_0_0 : ∀ a, (![0, 0] : Fin 2 → Nat) a + S8x100000.size a ≤ S8x100000.size a
  h_S8x100000 : 0 < S8x100000.numel
  shapeCasts_S8x100000_S8x100000 : S8x100000.ShapeCasts S8x100000
  inb_S100000_S100000_0 : ∀ a, (![0] : Fin 1 → Nat) a + S100000.size a ≤ S100000.size a
  h_S100000 : 0 < S100000.numel
  shapeCasts_S100000_S1x100000 : S100000.ShapeCasts S1x100000
  shapeCasts_S1x100000_S1x100000 : S1x100000.ShapeCasts S1x100000
  broadcasts_S1x100000_S8x100000 : S1x100000.Broadcasts S8x100000
  gather_S8x100000_S3200000x1_S8x3200000_0_1_n_n_1_1_81_wf : GatherDims.WF S8x100000 S3200000x1 S8x3200000 [0] [1] [] [1] [] 1 ![8, 1]
  scatter_S8x100000_S3200000x1_S8x3200000_0_1_1_1_wf : ScatterDims.WF S8x100000 S3200000x1 S8x3200000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128000.size a ≤ S8x3200000.size a
  hwx0_0 : ∀ i : grid0.Coords, EltTy.bits .f32 = 32 ∨ (Rect.block (s := S8x3200000) S8x128000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128000.size a ≤ S8x3200000.size a
  hwx0_1 : ∀ i : grid0.Coords, EltTy.bits .f32 = 32 ∨ (Rect.block (s := S8x3200000) S8x128000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128000.size a ≤ S3200000.size a
  hwx0_2 : ∀ i : grid0.Coords, EltTy.bits .f32 = 32 ∨ (Rect.block (s := S3200000) S128000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128000.size a ≤ S8x3200000.size a
  hwx0_3 : ∀ i : grid0.Coords, EltTy.bits .f32 = 32 ∨ (Rect.block (s := S8x3200000) S8x128000.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x100000.size a ≤ S8x100000.size a
  hwx1_0 : ∀ i : grid1.Coords, EltTy.bits .f32 = 32 ∨ (Rect.block (s := S8x100000) S8x100000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x100000.size a ≤ S8x100000.size a
  hwx1_1 : ∀ i : grid1.Coords, EltTy.bits .f32 = 32 ∨ (Rect.block (s := S8x100000) S8x100000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100000.size a ≤ S100000.size a
  hwx1_2 : ∀ i : grid1.Coords, EltTy.bits .f32 = 32 ∨ (Rect.block (s := S100000) S100000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S100000.size a ≤ S100000.size a
  hwx1_3 : ∀ i : grid1.Coords, EltTy.bits .f32 = 32 ∨ (Rect.block (s := S100000) S100000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x100000.size a ≤ S8x100000.size a
  hwx1_4 : ∀ i : grid1.Coords, EltTy.bits .f32 = 32 ∨ (Rect.block (s := S8x100000) S8x100000.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x100000.size a ≤ S8x100000.size a
  hwx1_5 : ∀ i : grid1.Coords, EltTy.bits .f32 = 32 ∨ (Rect.block (s := S8x100000) S8x100000.size (cc1_transform_5 i) (hinb1_5 i)).WholeWords (EltTy.packing .f32)

variable [Facts₀]

def gather_S8x100000_S3200000x1_S8x3200000_0_1_n_n_1_1_81 : GatherDims S8x100000 S3200000x1 S8x3200000 where
  offsetDims := [0]
  collapsedSliceDims := [1]
  operandBatchingDims := []
  startIndicesBatchingDims := []
  startIndexMap := [1]
  indexVectorDim := 1
  sliceSizes := ![8, 1]
  wf := gather_S8x100000_S3200000x1_S8x3200000_0_1_n_n_1_1_81_wf
def scatter_S8x100000_S3200000x1_S8x3200000_0_1_1_1 : ScatterDims S8x100000 S3200000x1 S8x3200000 where
  updateWindowDims := [0]
  insertedWindowDims := [1]
  scatterDimsToOperandDims := [1]
  indexVectorDim := 1
  wf := scatter_S8x100000_S3200000x1_S8x3200000_0_1_1_1_wf

abbrev win0_0 : Pipeline.Window sig grid0 :=
  Pipeline.Window.ofSpec (Memref.whole main_v6) S8x128000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8x128000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S8x128000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8x100000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v21) S8x100000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S100000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S100000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22_0) S8x100000.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22_1) S8x100000.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x100000 : Shape := ⟨2, ![8, 100000]⟩
abbrev S3200000 : Shape := ⟨1, ![3200000]⟩
abbrev S100000 : Shape := ⟨1, ![100000]⟩
abbrev S_ : Shape := ⟨0, ![]⟩
abbrev S3200000x1 : Shape := ⟨2, ![3200000, 1]⟩
abbrev S8x3200000 : Shape := ⟨2, ![8, 3200000]⟩
abbrev S1x3200000 : Shape := ⟨2, ![1, 3200000]⟩
abbrev S1x100000 : Shape := ⟨2, ![1, 100000]⟩

abbrev nBuf : Space → Nat
  | .hbm => 68
  | .vmem => 0
  | .smem => 0
  | _ => 0

abbrev bufTy : (tb : Table) → Fin (tcTables nBuf tb) → BufTy
  | .hbm, ⟨0, _⟩ => ⟨S8x100000, .f32⟩
  | .hbm, ⟨1, _⟩ => ⟨S8x100000, .f32⟩
  | .hbm, ⟨2, _⟩ => ⟨S8x100000, .f32⟩
  | .hbm, ⟨3, _⟩ => ⟨S3200000, .i32⟩
  | .hbm, ⟨4, _⟩ => ⟨S3200000, .i32⟩
  | .hbm, ⟨5, _⟩ => ⟨S3200000, .f32⟩
  | .hbm, ⟨6, _⟩ => ⟨S8x100000, .f32⟩
  | .hbm, ⟨7, _⟩ => ⟨S100000, .f32⟩
  | .hbm, ⟨8, _⟩ => ⟨S100000, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S8x3200000, .f32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S8x3200000, .f32⟩
  | .hbm, ⟨27, _⟩ => ⟨S1x3200000, .f32⟩
  | .hbm, ⟨28, _⟩ => ⟨S8x3200000, .f32⟩
  | .hbm, ⟨29, _⟩ => ⟨S8x3200000, .f32⟩
  | .hbm, ⟨30, _⟩ => ⟨S8x3200000, .f32⟩
  | .hbm, ⟨31, _⟩ => ⟨S8x3200000, .f32⟩
  | .hbm, ⟨32, _⟩ => ⟨S8x3200000, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S8x100000, .f32⟩
  | .hbm, ⟨42, _⟩ => ⟨S8x100000, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8x100000, .f32⟩
  | .hbm, ⟨47, _⟩ => ⟨S8x100000, .f32⟩
  | .hbm, ⟨48, _⟩ => ⟨S_, .f32⟩
  | .hbm, ⟨49, _⟩ => ⟨S8x100000, .f32⟩
  | .hbm, ⟨50, _⟩ => ⟨S8x100000, .f32⟩
  | .hbm, ⟨51, _⟩ => ⟨S1x100000, .f32⟩
  | .hbm, ⟨52, _⟩ => ⟨S8x100000, .f32⟩
  | .hbm, ⟨53, _⟩ => ⟨S8x100000, .i1⟩
  | .hbm, ⟨54, _⟩ => ⟨S8x100000, .i1⟩
  | .hbm, ⟨55, _⟩ => ⟨S8x100000, .i1⟩
  | .hbm, ⟨56, _⟩ => ⟨S8x100000, .i1⟩
  | .hbm, ⟨57, _⟩ => ⟨S1x100000, .f32⟩
  | .hbm, ⟨58, _⟩ => ⟨S8x100000, .f32⟩
  | .hbm, ⟨59, _⟩ => ⟨S8x100000, .f32⟩
  | .hbm, ⟨60, _⟩ => ⟨S_, .f32⟩
  | .hbm, ⟨61, _⟩ => ⟨S8x100000, .f32⟩
  | .hbm, ⟨62, _⟩ => ⟨S8x100000, .f32⟩
  | .hbm, ⟨63, _⟩ => ⟨S1x100000, .f32⟩
  | .hbm, ⟨64, _⟩ => ⟨S8x100000, .f32⟩
  | .hbm, ⟨65, _⟩ => ⟨S8x100000, .f32⟩
  | .hbm, ⟨66, _⟩ => ⟨S8x100000, .f32⟩
  | .hbm, ⟨67, _⟩ => ⟨S8x100000, .f32⟩
  | _, _ => ⟨S8x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call1_cst : Ref sig .tc := ⟨.hbm, 60, rfl⟩
abbrev main_call1_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000_S1x3200000_1 : S3200000.BroadcastsInDim S1x3200000 (![1] : Fin 1 → Fin S1x3200000.rank)
  bcast_S1x3200000_S8x3200000_0_1 : S1x3200000.BroadcastsInDim S8x3200000 (![0, 1] : Fin 2 → Fin S8x3200000.rank)
  bcast_S_S8x100000 : S_.BroadcastsInDim S8x100000 (![] : Fin 0 → Fin S8x100000.rank)
  bcast_S100000_S1x100000_1 : S100000.BroadcastsInDim S1x100000 (![1] : Fin 1 → Fin S1x100000.rank)
  bcast_S1x100000_S8x100000_0_1 : S1x100000.BroadcastsInDim S8x100000 (![0, 1] : Fin 2 → Fin S8x100000.rank)
  gather_S8x100000_S3200000x1_S8x3200000_0_1_n_n_1_1_81_wf : GatherDims.WF S8x100000 S3200000x1 S8x3200000 [0] [1] [] [1] [] 1 ![8, 1]
  scatter_S8x100000_S3200000x1_S8x3200000_0_1_1_1_wf : ScatterDims.WF S8x100000 S3200000x1 S8x3200000 [0] [1] [1] 1

variable [Facts₀]

def gather_S8x100000_S3200000x1_S8x3200000_0_1_n_n_1_1_81 : GatherDims S8x100000 S3200000x1 S8x3200000 where
  offsetDims := [0]
  collapsedSliceDims := [1]
  operandBatchingDims := []
  startIndicesBatchingDims := []
  startIndexMap := [1]
  indexVectorDim := 1
  sliceSizes := ![8, 1]
  wf := gather_S8x100000_S3200000x1_S8x3200000_0_1_n_n_1_1_81_wf
def scatter_S8x100000_S3200000x1_S8x3200000_0_1_1_1 : ScatterDims S8x100000 S3200000x1 S8x3200000 where
  updateWindowDims := [0]
  insertedWindowDims := [1]
  scatterDimsToOperandDims := [1]
  indexVectorDim := 1
  wf := scatter_S8x100000_S3200000x1_S8x3200000_0_1_1_1_wf

class Facts : Prop extends Facts₀ where

variable [Facts]
-- ==== Proof.Neuron.lean ====
/-
  The mathematics of one step of the gap-junction network, element by element, on the extended reals.

  An edge from a presynaptic neuron with output `oj` to a postsynaptic neuron with internal state `en`,
  of weight `w`, contributes `oj · w · sign (oj - en)`. A neuron with internal state `e`, total influence
  `chem`, threshold `thr` and decay `dec` first clamps `e + chem` to [-10, 10]; its new output is the
  clamped sum less the threshold, cut off below at zero; its new state is that output where the clamped
  sum exceeds the threshold, `e - dec` where it does not and equals `e`, and the clamped sum otherwise.
  These are the scalar functions both programs apply at every index; the arrays are the functions below
  of the argument arrays, a per-neuron vector read along the last axis.
-/
import Idealize.ShloMosaic.PureOps.Ideal.Laws
import Idealize.ShloMosaic.Lib.ValueIdx

noncomputable section

namespace Cert.GapJunction

open Idealize.ShloMosaic Idealize.ShloMosaic.ValueIdx

/-- One edge's contribution: output times weight, with the sign of output minus postsynaptic state. -/
def edge (oj en w : Ideal .f32) : Ideal .f32 :=
  FloatOps.mulf (FloatOps.mulf oj w) (Ideal.sign (FloatOps.subf oj en))

/-- The clamp to [-10, 10]: the lower bound first, then the upper. -/
def clip (s : Ideal .f32) : Ideal .f32 :=
  FloatOps.minimumf (Ideal.ofBits .f32 0x41200000#32) (FloatOps.maximumf (Ideal.ofBits .f32 0xC1200000#32) s)

/-- A neuron's new output: the clamped sum above the threshold, zero below it. -/
def fire (e chem thr : Ideal .f32) : Ideal .f32 :=
  FloatOps.maximumf (FloatOps.subf (clip (FloatOps.addf e chem)) thr) (Ideal.ofBits .f32 0x00000000#32)

/-- Whether the clamped sum exceeds the threshold, as one bit. -/
def above (e chem thr : Ideal .f32) : BitVec 1 := FloatOps.cmpf .ogt (clip (FloatOps.addf e chem)) thr

/-- A neuron's new state, by the three cases. -/
def state (e chem thr dec : Ideal .f32) : Ideal .f32 :=
  Scalar.select (above e chem thr) (fire e chem thr)
    (Scalar.select (IntOp.andi (~~~ above e chem thr) (FloatOps.cmpf .oeq (clip (FloatOps.addf e chem)) e))
      (FloatOps.subf e dec) (clip (FloatOps.addf e chem)))

/-- A one-bit word flipped by exclusive-or with the set bit is its complement. -/
theorem xori_one (g : BitVec 1) : IntOp.xori g 1#1 = ~~~g := by
  rcases BitVec.eq_zero_or_eq_one g with h | h <;> subst h <;> decide

/-- The last coordinate of a rank-2 index, as an index of a vector along that axis. -/
abbrev lastOf {n0 n1 : Nat} (i : (⟨2, ![n0, n1]⟩ : Shape).Idx) : (⟨1, ![n1]⟩ : Shape).Idx :=
  ix1 ⟨(i 1).val, idx2_lt1 i⟩

theorem lastOf_ix2 {n0 n1 : Nat} (p : Fin n0) (q : Fin n1) : lastOf (ix2 p q) = ix1 q := rfl

/-- The edge contributions as an array: entry `(b, k)` from the gathered outputs and states at `(b, k)`
    and the weight of edge `k`. -/
def contribArr {n0 n1 : Nat} (oj en : (⟨2, ![n0, n1]⟩ : Shape).Idx → Ideal .f32) (w : (⟨1, ![n1]⟩ : Shape).Idx → Ideal .f32) :
    (⟨2, ![n0, n1]⟩ : Shape).Idx → Ideal .f32 :=
  fun i => edge (oj i) (en i) (w (lastOf i))

/-- The new outputs as an array: entry `(b, n)` from the state and influence at `(b, n)` and neuron `n`'s threshold. -/
def fireArr {n0 n1 : Nat} (e chem : (⟨2, ![n0, n1]⟩ : Shape).Idx → Ideal .f32) (thr : (⟨1, ![n1]⟩ : Shape).Idx → Ideal .f32) :
    (⟨2, ![n0, n1]⟩ : Shape).Idx → Ideal .f32 :=
  fun i => fire (e i) (chem i) (thr (lastOf i))

/-- The new states as an array, likewise, with neuron `n`'s decay. -/
def stateArr {n0 n1 : Nat} (e chem : (⟨2, ![n0, n1]⟩ : Shape).Idx → Ideal .f32) (thr dec : (⟨1, ![n1]⟩ : Shape).Idx → Ideal .f32) :
    (⟨2, ![n0, n1]⟩ : Shape).Idx → Ideal .f32 :=
  fun i => state (e i) (chem i) (thr (lastOf i)) (dec (lastOf i))

end Cert.GapJunction

end
-- ==== Proof.KernelRun.lean ====
/-
  The idealized kernel's run with its two result arrays named.

  The program is four segments: the host operations that gather the presynaptic outputs and the
  postsynaptic states along the edges, the edge-contribution region, the host scatter-add of the
  contributions into the chemical influence, and the neuron-update region. The contents of every
  buffer at each segment boundary are a fold from the launch memory (`Gen.W1` … `Gen.W4`); this module
  runs the segments through the library's launch theorem and reads the final state at the two result
  buffers as well as at the arguments: each result ends at `Gen.W4` of its buffer, the contents after
  the last region.
-/
import proofs.«145983_j32658931319601_1_alg».proof.Proof.Gen.KernelIdeal.Frame

set_option maxRecDepth 16384

noncomputable section

namespace Cert.KernelIdeal.Outputs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end
    at the contents the last region leaves (`Gen.W4`), and the argument arrays end as launched. -/
theorem run : θ_run defs (onTc (τ := τ) (main (F := F))) ⟨m, fun _ => 0, ρ⟩ (fun r => ∀ c : Dev nD,
      r.2.mem ((c.tc : Thread nD τ).loc main_v22_0) = W4 m ρ c (Proc.devRef .tc main_v22_0)
      ∧ r.2.mem ((c.tc : Thread nD τ).loc main_v22_1) = W4 m ρ c (Proc.devRef .tc main_v22_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v22_0 (by decide)),
       h c _ (mem_uc main_v22_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Outputs

end
-- ==== Proof.EdgeRegion.lean ====
/-
  The edge-contribution region, read as an array.

  The region runs over 25 grid points; point `t` stages columns [128000·t, 128000·(t+1)) of the gathered
  outputs, of the gathered states and of the weights, and writes the same columns of the result. Its body
  multiplies output by weight (the weights laid out as one row and repeated down the 8 rows) and by the
  sign of output minus state, which at the extended reals is `Ideal.sign`. So every entry `(b, k)` of the
  result array is `edge` of the gathered output and state at `(b, k)` and the weight of edge `k`: the 25
  column blocks tile the array, and each block is that one function restricted to its columns. Stated for
  any buffer contents `V` the region may be entered from.
-/
import proofs.«145983_j32658931319601_1_alg».proof.Proof.Gen.KernelIdeal.Frame
import proofs.«145983_j32658931319601_1_alg».proof.Proof.Neuron
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Edges

open Cert.KernelIdeal Cert.KernelIdeal.Gen Cert.GapJunction
open Idealize.ShloMosaic Idealize.ShloMosaic.TcCoe Idealize.SL.Sem Idealize.ShloMosaic.ValueIdx
open Idealize.ShloMosaic.Pipeline (Dat)

/-- The weights of a block, laid out as one row and repeated down the rows, read at `(p, q)`: weight `q`. -/
theorem weight_row (x2 : FVec Ideal S128000 .f32) (p : Fin 8) (q : Fin 128000) :
    broadcastTo S8x128000 (shapeCast S1x128000 x2 shapeCasts_S128000_S1x128000)
      broadcasts_S1x128000_S8x128000 (ix2 p q) = x2 (ix1 q) := by
  rw [broadcastTo_1b_ab_apply, shapeCast_a_1a_apply]

/-- The body's stored value at `(p, q)` is `edge` of the loaded output and state at `(p, q)` and the loaded weight `q`. -/
theorem pay_edge (x0 x1 : FVec Ideal S8x128000 .f32) (x2 : FVec Ideal S128000 .f32) (p : Fin 8) (q : Fin 128000) :
    k0_pay1 x0 x1 x2 (ix2 p q) = edge (x0 (ix2 p q)) (x1 (ix2 p q)) (x2 (ix1 q)) := by
  unfold k0_pay1
  simp only [shapeCast_self]
  refine (show _ = FloatOps.mulf (FloatOps.mulf (x0 (ix2 p q))
      (broadcastTo S8x128000 (shapeCast S1x128000 x2 shapeCasts_S128000_S1x128000)
        broadcasts_S1x128000_S8x128000 (ix2 p q)))
      (Scalar.select (FloatOps.cmpf .ogt (FloatOps.absf (FloatOps.subf (x0 (ix2 p q)) (x1 (ix2 p q)))) (Scalar.ofBits .f32 0x00000000#32))
        (Scalar.select (FloatOps.cmpf .olt (FloatOps.subf (x0 (ix2 p q)) (x1 (ix2 p q))) (Scalar.ofBits .f32 0x00000000#32))
          (Scalar.ofBits .f32 0xBF800000#32) (Scalar.ofBits .f32 0x3F800000#32))
        (FloatOps.subf (x0 (ix2 p q)) (x1 (ix2 p q)))) from rfl).trans ?_
  rw [Ideal.jnp_sign_eq_sign_f32, weight_row]
  rfl

/-- The same at any index of the block, given what the three loads hold there in terms of the arrays. -/
theorem block_entry (a6 a13 : FVec Ideal S8x3200000 .f32) (a5 : FVec Ideal S3200000 .f32)
    (x0 x1 : FVec Ideal S8x128000 .f32) (x2 : FVec Ideal S128000 .f32) (y : S8x128000.Idx) (i : S8x3200000.Idx)
    (h0 : x0 y = a6 i) (h1 : x1 y = a13 i) (h2 : x2 (lastOf y) = a5 (lastOf i)) :
    k0_pay1 x0 x1 x2 y = contribArr a6 a13 a5 i := by
  obtain ⟨p, q, rfl⟩ : ∃ (p : Fin 8) (q : Fin 128000), y = ix2 p q := ⟨y 0, y 1, eq_ix2 y⟩
  rw [pay_edge]
  unfold contribArr
  rw [← h0, ← h1, ← h2]

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 25 points: every window is on the row block 0, and the three inputs move with
    the result along the columns. -/
theorem idx_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 1) = win0_3.index t (1 : Fin 2)
    ∧ win0_3.index t (0 : Fin 2) = 0 ∧ win0_3.index t (1 : Fin 2) ≤ 24 :=
  (by decide +kernel : ∀ t : Fin grid0.N, _)

/-- Every column block is some point's. -/
theorem idx_onto : ∀ q : Fin 25, ∃ t : Fin cfg0.N, win0_3.index t = ![0, q.val] :=
  (by decide +kernel : ∀ q : Fin 25, ∃ t : Fin grid0.N, win0_3.index t = ![0, q.val])

/-- What point `t` writes back is block `t` of the contribution array of the region-entry contents. -/
theorem flushed_eq (c : Dev nD) (t : Fin cfg0.N) :
    (dat0 V c).flushed 3 t
      = ((cfg0.win 3).blk t).view.read (Elt Ideal) (contribArr (V c main_v6) (V c main_v13) (V c main_arg5)) := by
  show (cfg0.win 3).cut (grid0.coords t) ((dat0 V c).after 3 t) = _
  rw [after0_3]
  unfold out0_3
  rw [View.canon_unit_zero hz2]
  simp only [View.ld_unit_zero (S := S8x128000) hz2, View.ld_unit_zero (S := S128000) hz1]
  obtain ⟨e0, e1, e2, e3, e4, e5, e6⟩ := idx_facts t
  funext j
  refine block_entry (V c main_v6) (V c main_v13) (V c main_arg5) (iblk0 V c 0 t) (iblk0 V c 1 t) (iblk0 V c 2 t) j
    (((cfg0.win 3).blk t).view.emb j) ?_ ?_ ?_
  · show V c main_v6 (((cfg0.win 0).blk t).view.emb j) = V c main_v6 (((cfg0.win 3).blk t).view.emb j)
    refine congrArg (V c main_v6) (funext fun a => Fin.ext ?_)
    match a with
    | ⟨0, _⟩ => show win0_0.index t (0 : Fin 2) * 8 + 1 * (j 0).val = win0_3.index t (0 : Fin 2) * 8 + 1 * (j 0).val; omega
    | ⟨1, _⟩ => show win0_0.index t (1 : Fin 2) * 128000 + 1 * (j 1).val = win0_3.index t (1 : Fin 2) * 128000 + 1 * (j 1).val; omega
  · show V c main_v13 (((cfg0.win 1).blk t).view.emb j) = V c main_v13 (((cfg0.win 3).blk t).view.emb j)
    refine congrArg (V c main_v13) (funext fun a => Fin.ext ?_)
    match a with
    | ⟨0, _⟩ => show win0_1.index t (0 : Fin 2) * 8 + 1 * (j 0).val = win0_3.index t (0 : Fin 2) * 8 + 1 * (j 0).val; omega
    | ⟨1, _⟩ => show win0_1.index t (1 : Fin 2) * 128000 + 1 * (j 1).val = win0_3.index t (1 : Fin 2) * 128000 + 1 * (j 1).val; omega
  · show V c main_arg5 (((cfg0.win 2).blk t).view.emb (lastOf j)) = V c main_arg5 (lastOf (((cfg0.win 3).blk t).view.emb j))
    refine congrArg (V c main_arg5) (funext fun a => Fin.ext ?_)
    match a with
    | ⟨0, _⟩ => show win0_2.index t (0 : Fin 1) * 128000 + 1 * (j 1).val = win0_3.index t (1 : Fin 2) * 128000 + 1 * (j 1).val; omega

/-- An index of the result array is in point `t`'s block iff each coordinate is in the block's range on its axis. -/
theorem mem_blk (t : Fin cfg0.N) (i : S8x3200000.Idx) :
    i ∈ ((cfg0.win 3).blk t).view.set ↔ ∀ a : Fin 2, win0_3.index t a * S8x128000.size a ≤ (i a).val
      ∧ (i a).val < win0_3.index t a * S8x128000.size a + S8x128000.size a := by
  show i ∈ ((View.whole main_v14).slice (win0_3.rect t)).set ↔ _
  rw [View.set_slice_whole, Rect.mem_set_unit]
  exact Iff.rfl

/-- The 25 column blocks cover the array: column `k` is in block `k / 128000`. -/
theorem cover (i : S8x3200000.Idx) :
    ∃ t : Fin cfg0.N, (cfg0.win 3).flush t = true ∧ i ∈ ((cfg0.win 3).blk t).view.set := by
  have hi0 : (i 0).val < 8 := (i 0).isLt
  have hi1 : (i 1).val < 3200000 := (i 1).isLt
  obtain ⟨t, ht⟩ := idx_onto ⟨(i 1).val / 128000, by omega⟩
  have q0 : win0_3.index t (0 : Fin 2) = 0 := congrFun ht 0
  have q1 : win0_3.index t (1 : Fin 2) = (i 1).val / 128000 := congrFun ht 1
  refine ⟨t, flush0_3 t, ?_⟩
  rw [mem_blk]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 128000 ≤ (i 1).val ∧ (i 1).val < win0_3.index t (1 : Fin 2) * 128000 + 128000; omega

/-- After the region its result array is the contribution array of the contents it was entered from. -/
theorem contrib_array (c : Dev nD) :
    (dat0 V c).arrAt 3 cfg0.N = contribArr (V c main_v6) (V c main_v13) (V c main_arg5) :=
  (dat0 V c).arrAt_eq_of_cover 3 _ (fun t _ => flushed_eq V c t) cover

end Cert.KernelIdeal.Edges

end
-- ==== Proof.UpdateRegion.lean ====
/-
  The neuron-update region, read as two arrays.

  The region has one grid point, whose blocks are the whole arrays: the states, the influences, the
  thresholds, the decays, and the two results. Its body clamps state plus influence to [-10, 10], takes
  the clamped sum less the threshold cut off at zero as the new output, and chooses the new state by the
  two comparisons; threshold and decay are laid out as one row and repeated down the 8 rows. So entry
  `(b, n)` of the first result is `fire`, and of the second `state`, of the state and influence at `(b, n)`
  and of neuron `n`'s threshold and decay. The kernel negates its comparison bit by exclusive-or with the
  set bit, which is the complement. Stated for any buffer contents `V` the region may be entered from.
-/
import proofs.«145983_j32658931319601_1_alg».proof.Proof.Gen.KernelIdeal.Frame
import proofs.«145983_j32658931319601_1_alg».proof.Proof.Neuron
import Idealize.ShloMosaic.Lib.Pipeline.Value
import Idealize.ShloMosaic.Lib.ValueIdx
import Idealize.ShloMosaic.Lib.ValueLayout

set_option maxRecDepth 16384

noncomputable section

namespace Cert.KernelIdeal.Neurons

open Cert.KernelIdeal Cert.KernelIdeal.Gen Cert.GapJunction
open Idealize.ShloMosaic Idealize.ShloMosaic.TcCoe Idealize.SL.Sem Idealize.ShloMosaic.ValueIdx
open Idealize.ShloMosaic.Pipeline (Dat)

/-- A per-neuron vector laid out as one row and repeated down the rows, read at `(p, q)`: entry `q`. -/
theorem row_of (x : FVec Ideal S100000 .f32) (p : Fin 8) (q : Fin 100000) :
    broadcastTo S8x100000 (shapeCast S1x100000 x shapeCasts_S100000_S1x100000)
      broadcasts_S1x100000_S8x100000 (ix2 p q) = x (ix1 q) := by
  rw [broadcastTo_1b_ab_apply, shapeCast_a_1a_apply]

/-- The thresholds as the body lays them out, at `(p, q)`. -/
theorem pay_row (v3 : FVec Ideal S100000 .f32) (p : Fin 8) (q : Fin 100000) : k1_pay1 v3 (ix2 p q) = v3 (ix1 q) := by
  unfold k1_pay1
  simp only [shapeCast_self]
  exact row_of v3 p q

/-- The clamped sum at an index. -/
theorem pay_clip (v0 v1 : FVec Ideal S8x100000 .f32) (j : S8x100000.Idx) :
    k1_pay2 v0 v1 j = clip (FloatOps.addf (v0 j) (v1 j)) := by
  unfold k1_pay2
  simp only [shapeCast_self]
  rfl

/-- The first stored value at `(p, q)`: the new output. -/
theorem pay_fire (v0 v1 : FVec Ideal S8x100000 .f32) (v3 : FVec Ideal S100000 .f32) (p : Fin 8) (q : Fin 100000) :
    k1_pay3 v0 v1 v3 (ix2 p q) = fire (v0 (ix2 p q)) (v1 (ix2 p q)) (v3 (ix1 q)) := by
  unfold k1_pay3
  refine (show _ = FloatOps.maximumf (FloatOps.subf (k1_pay2 (F := Ideal) v0 v1 (ix2 p q)) (k1_pay1 (F := Ideal) v3 (ix2 p q)))
    (Ideal.ofBits .f32 0x00000000#32) from rfl).trans ?_
  rw [pay_clip, pay_row]
  rfl

/-- The second stored value at `(p, q)`: the new state. -/
theorem pay_state (v0 v1 : FVec Ideal S8x100000 .f32) (v3 v7 : FVec Ideal S100000 .f32) (p : Fin 8) (q : Fin 100000) :
    k1_pay4 v0 v1 v3 v7 (ix2 p q) = state (v0 (ix2 p q)) (v1 (ix2 p q)) (v3 (ix1 q)) (v7 (ix1 q)) := by
  unfold k1_pay4
  simp only [shapeCast_self]
  refine (show _ = Scalar.select (FloatOps.cmpf .ogt (k1_pay2 (F := Ideal) v0 v1 (ix2 p q)) (k1_pay1 (F := Ideal) v3 (ix2 p q))) (k1_pay3 (F := Ideal) v0 v1 v3 (ix2 p q))
    (Scalar.select (IntOp.andi (IntOp.xori (FloatOps.cmpf .ogt (k1_pay2 (F := Ideal) v0 v1 (ix2 p q)) (k1_pay1 (F := Ideal) v3 (ix2 p q))) 1#1)
        (FloatOps.cmpf .oeq (k1_pay2 (F := Ideal) v0 v1 (ix2 p q)) (v0 (ix2 p q))))
      (FloatOps.subf (v0 (ix2 p q))
        (broadcastTo S8x100000 (shapeCast S1x100000 v7 shapeCasts_S100000_S1x100000)
          broadcasts_S1x100000_S8x100000 (ix2 p q)))
      (k1_pay2 (F := Ideal) v0 v1 (ix2 p q))) from rfl).trans ?_
  rw [pay_fire, pay_clip, pay_row, row_of, xori_one]
  rfl

/-- The first result at any index of the block, given what the loads hold there in terms of the arrays. -/
theorem block_fire (a1 a21 : FVec Ideal S8x100000 .f32) (a7 : FVec Ideal S100000 .f32)
    (x0 x1 : FVec Ideal S8x100000 .f32) (x2 : FVec Ideal S100000 .f32) (y i : S8x100000.Idx)
    (h0 : x0 y = a1 i) (h1 : x1 y = a21 i) (h2 : x2 (lastOf y) = a7 (lastOf i)) :
    k1_pay3 x0 x1 x2 y = fireArr a1 a21 a7 i := by
  obtain ⟨p, q, rfl⟩ : ∃ (p : Fin 8) (q : Fin 100000), y = ix2 p q := ⟨y 0, y 1, eq_ix2 y⟩
  rw [pay_fire]
  unfold fireArr
  rw [← h0, ← h1, ← h2]

/-- The second result likewise. -/
theorem block_state (a1 a21 : FVec Ideal S8x100000 .f32) (a7 a8 : FVec Ideal S100000 .f32)
    (x0 x1 : FVec Ideal S8x100000 .f32) (x2 x3 : FVec Ideal S100000 .f32) (y i : S8x100000.Idx)
    (h0 : x0 y = a1 i) (h1 : x1 y = a21 i) (h2 : x2 (lastOf y) = a7 (lastOf i)) (h3 : x3 (lastOf y) = a8 (lastOf i)) :
    k1_pay4 x0 x1 x2 x3 y = stateArr a1 a21 a7 a8 i := by
  obtain ⟨p, q, rfl⟩ : ∃ (p : Fin 8) (q : Fin 100000), y = ix2 p q := ⟨y 0, y 1, eq_ix2 y⟩
  rw [pay_state]
  unfold stateArr
  rw [← h0, ← h1, ← h2, ← h3]

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps at the one point: every window's block index is zero on every axis. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 1) = 0 ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- What the point writes back to the first result is its block of the new-output array of the entry contents. -/
theorem flushed_fire (c : Dev nD) (t : Fin cfg1.N) :
    (dat1 V c).flushed 4 t
      = ((cfg1.win 4).blk t).view.read (Elt Ideal) (fireArr (V c main_arg1) (V c main_v21) (V c main_arg7)) := by
  show (cfg1.win 4).cut (grid1.coords t) ((dat1 V c).after 4 t) = _
  rw [after1_4]
  unfold out1_4
  rw [View.canon_unit_zero hz2]
  simp only [View.ld_unit_zero (S := S8x100000) hz2, View.ld_unit_zero (S := S100000) hz1]
  obtain ⟨e0, e1, e2, e3, e4, e5, e6, e7, e8, e9⟩ := idx_facts t
  funext j
  refine block_fire (V c main_arg1) (V c main_v21) (V c main_arg7) (iblk1 V c 0 t) (iblk1 V c 1 t) (iblk1 V c 2 t) j
    (((cfg1.win 4).blk t).view.emb j) ?_ ?_ ?_
  · show V c main_arg1 (((cfg1.win 0).blk t).view.emb j) = V c main_arg1 (((cfg1.win 4).blk t).view.emb j)
    refine congrArg (V c main_arg1) (funext fun a => Fin.ext ?_)
    match a with
    | ⟨0, _⟩ => show win1_0.index t (0 : Fin 2) * 8 + 1 * (j 0).val = win1_4.index t (0 : Fin 2) * 8 + 1 * (j 0).val; omega
    | ⟨1, _⟩ => show win1_0.index t (1 : Fin 2) * 100000 + 1 * (j 1).val = win1_4.index t (1 : Fin 2) * 100000 + 1 * (j 1).val; omega
  · show V c main_v21 (((cfg1.win 1).blk t).view.emb j) = V c main_v21 (((cfg1.win 4).blk t).view.emb j)
    refine congrArg (V c main_v21) (funext fun a => Fin.ext ?_)
    match a with
    | ⟨0, _⟩ => show win1_1.index t (0 : Fin 2) * 8 + 1 * (j 0).val = win1_4.index t (0 : Fin 2) * 8 + 1 * (j 0).val; omega
    | ⟨1, _⟩ => show win1_1.index t (1 : Fin 2) * 100000 + 1 * (j 1).val = win1_4.index t (1 : Fin 2) * 100000 + 1 * (j 1).val; omega
  · show V c main_arg7 (((cfg1.win 2).blk t).view.emb (lastOf j)) = V c main_arg7 (lastOf (((cfg1.win 4).blk t).view.emb j))
    refine congrArg (V c main_arg7) (funext fun a => Fin.ext ?_)
    match a with
    | ⟨0, _⟩ => show win1_2.index t (0 : Fin 1) * 100000 + 1 * (j 1).val = win1_4.index t (1 : Fin 2) * 100000 + 1 * (j 1).val; omega

/-- What the point writes back to the second result is its block of the new-state array of the entry contents. -/
theorem flushed_state (c : Dev nD) (t : Fin cfg1.N) :
    (dat1 V c).flushed 5 t
      = ((cfg1.win 5).blk t).view.read (Elt Ideal) (stateArr (V c main_arg1) (V c main_v21) (V c main_arg7) (V c main_arg8)) := by
  show (cfg1.win 5).cut (grid1.coords t) ((dat1 V c).after 5 t) = _
  rw [after1_5]
  unfold out1_5
  rw [View.canon_unit_zero hz2]
  simp only [View.ld_unit_zero (S := S8x100000) hz2, View.ld_unit_zero (S := S100000) hz1]
  obtain ⟨e0, e1, e2, e3, e4, e5, e6, e7, e8, e9⟩ := idx_facts t
  funext j
  refine block_state (V c main_arg1) (V c main_v21) (V c main_arg7) (V c main_arg8)
    (iblk1 V c 0 t) (iblk1 V c 1 t) (iblk1 V c 2 t) (iblk1 V c 3 t) j (((cfg1.win 5).blk t).view.emb j) ?_ ?_ ?_ ?_
  · show V c main_arg1 (((cfg1.win 0).blk t).view.emb j) = V c main_arg1 (((cfg1.win 5).blk t).view.emb j)
    refine congrArg (V c main_arg1) (funext fun a => Fin.ext ?_)
    match a with
    | ⟨0, _⟩ => show win1_0.index t (0 : Fin 2) * 8 + 1 * (j 0).val = win1_5.index t (0 : Fin 2) * 8 + 1 * (j 0).val; omega
    | ⟨1, _⟩ => show win1_0.index t (1 : Fin 2) * 100000 + 1 * (j 1).val = win1_5.index t (1 : Fin 2) * 100000 + 1 * (j 1).val; omega
  · show V c main_v21 (((cfg1.win 1).blk t).view.emb j) = V c main_v21 (((cfg1.win 5).blk t).view.emb j)
    refine congrArg (V c main_v21) (funext fun a => Fin.ext ?_)
    match a with
    | ⟨0, _⟩ => show win1_1.index t (0 : Fin 2) * 8 + 1 * (j 0).val = win1_5.index t (0 : Fin 2) * 8 + 1 * (j 0).val; omega
    | ⟨1, _⟩ => show win1_1.index t (1 : Fin 2) * 100000 + 1 * (j 1).val = win1_5.index t (1 : Fin 2) * 100000 + 1 * (j 1).val; omega
  · show V c main_arg7 (((cfg1.win 2).blk t).view.emb (lastOf j)) = V c main_arg7 (lastOf (((cfg1.win 5).blk t).view.emb j))
    refine congrArg (V c main_arg7) (funext fun a => Fin.ext ?_)
    match a with
    | ⟨0, _⟩ => show win1_2.index t (0 : Fin 1) * 100000 + 1 * (j 1).val = win1_5.index t (1 : Fin 2) * 100000 + 1 * (j 1).val; omega
  · show V c main_arg8 (((cfg1.win 3).blk t).view.emb (lastOf j)) = V c main_arg8 (lastOf (((cfg1.win 5).blk t).view.emb j))
    refine congrArg (V c main_arg8) (funext fun a => Fin.ext ?_)
    match a with
    | ⟨0, _⟩ => show win1_3.index t (0 : Fin 1) * 100000 + 1 * (j 1).val = win1_5.index t (1 : Fin 2) * 100000 + 1 * (j 1).val; omega

/-- An index of the first result is in the point's block iff each coordinate is in the block's range on its axis. -/
theorem mem_blk4 (t : Fin cfg1.N) (i : S8x100000.Idx) :
    i ∈ ((cfg1.win 4).blk t).view.set ↔ ∀ a : Fin 2, win1_4.index t a * S8x100000.size a ≤ (i a).val
      ∧ (i a).val < win1_4.index t a * S8x100000.size a + S8x100000.size a := by
  show i ∈ ((View.whole main_v22_0).slice (win1_4.rect t)).set ↔ _
  rw [View.set_slice_whole, Rect.mem_set_unit]
  exact Iff.rfl

theorem mem_blk5 (t : Fin cfg1.N) (i : S8x100000.Idx) :
    i ∈ ((cfg1.win 5).blk t).view.set ↔ ∀ a : Fin 2, win1_5.index t a * S8x100000.size a ≤ (i a).val
      ∧ (i a).val < win1_5.index t a * S8x100000.size a + S8x100000.size a := by
  show i ∈ ((View.whole main_v22_1).slice (win1_5.rect t)).set ↔ _
  rw [View.set_slice_whole, Rect.mem_set_unit]
  exact Iff.rfl

/-- The one block is the whole of the first result. -/
theorem cover4 (i : S8x100000.Idx) :
    ∃ t : Fin cfg1.N, (cfg1.win 4).flush t = true ∧ i ∈ ((cfg1.win 4).blk t).view.set := by
  have hi0 : (i 0).val < 8 := (i 0).isLt
  have hi1 : (i 1).val < 100000 := (i 1).isLt
  obtain ⟨e0, e1, e2, e3, e4, e5, e6, e7, e8, e9⟩ := idx_facts t1_0
  refine ⟨t1_0, flush1_4 t1_0, ?_⟩
  rw [mem_blk4]
  intro a
  match a with
  | ⟨0, _⟩ => show win1_4.index t1_0 (0 : Fin 2) * 8 ≤ (i 0).val ∧ (i 0).val < win1_4.index t1_0 (0 : Fin 2) * 8 + 8; omega
  | ⟨1, _⟩ => show win1_4.index t1_0 (1 : Fin 2) * 100000 ≤ (i 1).val ∧ (i 1).val < win1_4.index t1_0 (1 : Fin 2) * 100000 + 100000; omega

/-- The one block is the whole of the second result. -/
theorem cover5 (i : S8x100000.Idx) :
    ∃ t : Fin cfg1.N, (cfg1.win 5).flush t = true ∧ i ∈ ((cfg1.win 5).blk t).view.set := by
  have hi0 : (i 0).val < 8 := (i 0).isLt
  have hi1 : (i 1).val < 100000 := (i 1).isLt
  obtain ⟨e0, e1, e2, e3, e4, e5, e6, e7, e8, e9⟩ := idx_facts t1_0
  refine ⟨t1_0, flush1_5 t1_0, ?_⟩
  rw [mem_blk5]
  intro a
  match a with
  | ⟨0, _⟩ => show win1_5.index t1_0 (0 : Fin 2) * 8 ≤ (i 0).val ∧ (i 0).val < win1_5.index t1_0 (0 : Fin 2) * 8 + 8; omega
  | ⟨1, _⟩ => show win1_5.index t1_0 (1 : Fin 2) * 100000 ≤ (i 1).val ∧ (i 1).val < win1_5.index t1_0 (1 : Fin 2) * 100000 + 100000; omega

/-- After the region its first result is the new-output array of the contents it was entered from. -/
theorem fire_array (c : Dev nD) :
    (dat1 V c).arrAt 4 cfg1.N = fireArr (V c main_arg1) (V c main_v21) (V c main_arg7) :=
  (dat1 V c).arrAt_eq_of_cover 4 _ (fun t _ => flushed_fire V c t) cover4

/-- And its second result the new-state array. -/
theorem state_array (c : Dev nD) :
    (dat1 V c).arrAt 5 cfg1.N = stateArr (V c main_arg1) (V c main_v21) (V c main_arg7) (V c main_arg8) :=
  (dat1 V c).arrAt_eq_of_cover 5 _ (fun t _ => flushed_state V c t) cover5

end Cert.KernelIdeal.Neurons

end
-- ==== Proof.HostChain.lean ====
/-
  The idealized kernel's two results as functions of its arguments.

  Before the first region the host gathers, along the edges, the presynaptic outputs (`o_pre[:, src]`) and the
  postsynaptic states (`E[:, dst]`), a negative index first wrapped by the neuron count. The first region leaves
  the edge contributions (EdgeRegion). The host then scatter-adds them into the chemical influence at the
  postsynaptic neurons, and the second region leaves the new outputs and new states (UpdateRegion). No segment
  writes an argument, so every argument is read at its launch contents. Composing the four segments: the results
  are `fireArr` and `stateArr` of the states, the total influence, the thresholds and the decays, where the total
  influence is the scatter-add of `contribArr` of the two gathers and the weights. The gathers and the scatter-add
  are never opened: both programs apply the same ones.
-/
import proofs.«145983_j32658931319601_1_alg».proof.Proof.Gen.KernelIdeal.Frame
import proofs.«145983_j32658931319601_1_alg».proof.Proof.Neuron
import proofs.«145983_j32658931319601_1_alg».proof.Proof.EdgeRegion
import proofs.«145983_j32658931319601_1_alg».proof.Proof.UpdateRegion
import Idealize.ShloMosaic.Lib.StableHlo.Run

set_option maxRecDepth 16384

noncomputable section

namespace Cert.KernelIdeal.Chain

open Cert.KernelIdeal Cert.KernelIdeal.Gen Cert.GapJunction
open Idealize.ShloMosaic Idealize.ShloMosaic.TcCoe Idealize.SL.Sem Idealize.ShloMosaic.StableHlo

/-- An edge's endpoint as a gather index: a negative index wrapped by the neuron count, then laid out as a column. -/
def wrap (a : (⟨S3200000, .i32⟩ : BufTy).Contents (Elt Ideal)) : (⟨S3200000x1, .i32⟩ : BufTy).Contents (Elt Ideal) :=
  broadcastInDim S3200000x1 ![0] bcast_S3200000_S3200000x1_0
    (select (cmpi .slt a (broadcastInDim S3200000 ![] bcast_S_S3200000 (constantI S_ 32 0#32)))
      (addi a (broadcastInDim S3200000 ![] bcast_S_S3200000 (constantI S_ 32 100000#32))) a)

/-- A per-neuron array gathered along the edges' endpoints. -/
def gathered (x : (⟨S8x100000, .f32⟩ : BufTy).Contents (Elt Ideal)) (a : (⟨S3200000, .i32⟩ : BufTy).Contents (Elt Ideal)) :
    (⟨S8x3200000, .f32⟩ : BufTy).Contents (Elt Ideal) :=
  Host.gather gather_S8x100000_S3200000x1_S8x3200000_0_1_n_n_1_1_81 x (wrap a)

/-- The total influence on every neuron: the given influence plus the contributions of the edges that end at it. -/
def influence (chem e opre : (⟨S8x100000, .f32⟩ : BufTy).Contents (Elt Ideal)) (src dst : (⟨S3200000, .i32⟩ : BufTy).Contents (Elt Ideal))
    (w : (⟨S3200000, .f32⟩ : BufTy).Contents (Elt Ideal)) : (⟨S8x100000, .f32⟩ : BufTy).Contents (Elt Ideal) :=
  Host.scatterAdd scatter_S8x100000_S3200000x1_S8x3200000_0_1_1_1 chem (wrap dst)
    (contribArr (n0 := 8) (n1 := 3200000) (gathered opre src) (gathered e dst) w)

variable (m : (ℓ : Loc nD τ sig) → Buf (Elt Ideal) ℓ) (ρ : Dev nD → PrngReg)

/-! ## Before the first region -/

theorem entry0_v6 (c : Dev nD) :
    V1 m ρ c main_v6 = gathered (m ((c : Thread nD τ).loc main_arg6)) (m ((c : Thread nD τ).loc main_arg3)) := by
  show StableHlo.after hostOps0 (W0 m ρ c) (Proc.devRef .tc main_v6) = _
  after_results <;> rfl

theorem entry0_v13 (c : Dev nD) :
    V1 m ρ c main_v13 = gathered (m ((c : Thread nD τ).loc main_arg1)) (m ((c : Thread nD τ).loc main_arg4)) := by
  show StableHlo.after hostOps0 (W0 m ρ c) (Proc.devRef .tc main_v13) = _
  after_results <;> rfl

theorem entry0_arg5 (c : Dev nD) : V1 m ρ c main_arg5 = m ((c : Thread nD τ).loc main_arg5) := by
  show StableHlo.after hostOps0 (W0 m ρ c) (Proc.devRef .tc main_arg5) = _
  after_results <;> rfl

theorem entry0_arg0 (c : Dev nD) : W1 m ρ c (Proc.devRef .tc main_arg0) = m ((c : Thread nD τ).loc main_arg0) := by
  show StableHlo.after hostOps0 (W0 m ρ c) (Proc.devRef .tc main_arg0) = _
  after_results <;> rfl

theorem entry0_arg1 (c : Dev nD) : W1 m ρ c (Proc.devRef .tc main_arg1) = m ((c : Thread nD τ).loc main_arg1) := by
  show StableHlo.after hostOps0 (W0 m ρ c) (Proc.devRef .tc main_arg1) = _
  after_results <;> rfl

theorem entry0_arg4 (c : Dev nD) : W1 m ρ c (Proc.devRef .tc main_arg4) = m ((c : Thread nD τ).loc main_arg4) := by
  show StableHlo.after hostOps0 (W0 m ρ c) (Proc.devRef .tc main_arg4) = _
  after_results <;> rfl

theorem entry0_arg7 (c : Dev nD) : W1 m ρ c (Proc.devRef .tc main_arg7) = m ((c : Thread nD τ).loc main_arg7) := by
  show StableHlo.after hostOps0 (W0 m ρ c) (Proc.devRef .tc main_arg7) = _
  after_results <;> rfl

theorem entry0_arg8 (c : Dev nD) : W1 m ρ c (Proc.devRef .tc main_arg8) = m ((c : Thread nD τ).loc main_arg8) := by
  show StableHlo.after hostOps0 (W0 m ρ c) (Proc.devRef .tc main_arg8) = _
  after_results <;> rfl

/-! ## After the first region -/

/-- The first region leaves the edge contributions. -/
theorem exit0_v14 (c : Dev nD) :
    W2 m ρ c (Proc.devRef .tc main_v14)
      = contribArr (n0 := 8) (n1 := 3200000) (gathered (m ((c : Thread nD τ).loc main_arg6)) (m ((c : Thread nD τ).loc main_arg3)))
          (gathered (m ((c : Thread nD τ).loc main_arg1)) (m ((c : Thread nD τ).loc main_arg4))) (m ((c : Thread nD τ).loc main_arg5)) := by
  refine ((W2_arr m ρ c 3).trans (Edges.contrib_array (V1 m ρ) c)).trans ?_
  rw [entry0_v6, entry0_v13, entry0_arg5]

theorem exit0_arg0 (c : Dev nD) : W2 m ρ c (Proc.devRef .tc main_arg0) = m ((c : Thread nD τ).loc main_arg0) :=
  (W2_of_ne m ρ c main_arg0 (by decide)).trans (entry0_arg0 m ρ c)
theorem exit0_arg1 (c : Dev nD) : W2 m ρ c (Proc.devRef .tc main_arg1) = m ((c : Thread nD τ).loc main_arg1) :=
  (W2_of_ne m ρ c main_arg1 (by decide)).trans (entry0_arg1 m ρ c)
theorem exit0_arg4 (c : Dev nD) : W2 m ρ c (Proc.devRef .tc main_arg4) = m ((c : Thread nD τ).loc main_arg4) :=
  (W2_of_ne m ρ c main_arg4 (by decide)).trans (entry0_arg4 m ρ c)
theorem exit0_arg7 (c : Dev nD) : W2 m ρ c (Proc.devRef .tc main_arg7) = m ((c : Thread nD τ).loc main_arg7) :=
  (W2_of_ne m ρ c main_arg7 (by decide)).trans (entry0_arg7 m ρ c)
theorem exit0_arg8 (c : Dev nD) : W2 m ρ c (Proc.devRef .tc main_arg8) = m ((c : Thread nD τ).loc main_arg8) :=
  (W2_of_ne m ρ c main_arg8 (by decide)).trans (entry0_arg8 m ρ c)

/-! ## Before the second region -/

/-- The host's scatter-add leaves the total influence. -/
theorem entry1_v21 (c : Dev nD) :
    V3 m ρ c main_v21 = influence (m ((c : Thread nD τ).loc main_arg0)) (m ((c : Thread nD τ).loc main_arg1))
      (m ((c : Thread nD τ).loc main_arg6)) (m ((c : Thread nD τ).loc main_arg3)) (m ((c : Thread nD τ).loc main_arg4))
      (m ((c : Thread nD τ).loc main_arg5)) := by
  have h : @Eq ((⟨S8x100000, .f32⟩ : BufTy).Contents (Elt Ideal)) (V3 m ρ c main_v21)
      (Host.scatterAdd (F := Ideal) (φ := .f32) scatter_S8x100000_S3200000x1_S8x3200000_0_1_1_1
        (W2 m ρ c (Proc.devRef .tc main_arg0)) (wrap (W2 m ρ c (Proc.devRef .tc main_arg4))) (W2 m ρ c (Proc.devRef .tc main_v14))) := by
    show StableHlo.after hostOps1 (W2 m ρ c) (Proc.devRef .tc main_v21) = _
    after_results <;> rfl
  rw [h, exit0_arg0, exit0_arg4, exit0_v14]
  rfl

theorem entry1_arg1 (c : Dev nD) : V3 m ρ c main_arg1 = m ((c : Thread nD τ).loc main_arg1) := by
  have h : V3 m ρ c main_arg1 = W2 m ρ c (Proc.devRef .tc main_arg1) := by
    show StableHlo.after hostOps1 (W2 m ρ c) (Proc.devRef .tc main_arg1) = _
    after_results <;> rfl
  rw [h, exit0_arg1]

theorem entry1_arg7 (c : Dev nD) : V3 m ρ c main_arg7 = m ((c : Thread nD τ).loc main_arg7) := by
  have h : V3 m ρ c main_arg7 = W2 m ρ c (Proc.devRef .tc main_arg7) := by
    show StableHlo.after hostOps1 (W2 m ρ c) (Proc.devRef .tc main_arg7) = _
    after_results <;> rfl
  rw [h, exit0_arg7]

theorem entry1_arg8 (c : Dev nD) : V3 m ρ c main_arg8 = m ((c : Thread nD τ).loc main_arg8) := by
  have h : V3 m ρ c main_arg8 = W2 m ρ c (Proc.devRef .tc main_arg8) := by
    show StableHlo.after hostOps1 (W2 m ρ c) (Proc.devRef .tc main_arg8) = _
    after_results <;> rfl
  rw [h, exit0_arg8]

/-! ## After the second region: the results -/

/-- The first result: the new outputs. -/
theorem new_outputs (c : Dev nD) :
    W4 m ρ c (Proc.devRef .tc main_v22_0)
      = fireArr (n0 := 8) (n1 := 100000) (m ((c : Thread nD τ).loc main_arg1))
          (influence (m ((c : Thread nD τ).loc main_arg0)) (m ((c : Thread nD τ).loc main_arg1))
            (m ((c : Thread nD τ).loc main_arg6)) (m ((c : Thread nD τ).loc main_arg3)) (m ((c : Thread nD τ).loc main_arg4))
            (m ((c : Thread nD τ).loc main_arg5)))
          (m ((c : Thread nD τ).loc main_arg7)) := by
  refine ((W4_arr m ρ c 4).trans (Neurons.fire_array (V3 m ρ) c)).trans ?_
  rw [entry1_arg1, entry1_v21, entry1_arg7]

/-- The second result: the new states. -/
theorem new_states (c : Dev nD) :
    W4 m ρ c (Proc.devRef .tc main_v22_1)
      = stateArr (n0 := 8) (n1 := 100000) (m ((c : Thread nD τ).loc main_arg1))
          (influence (m ((c : Thread nD τ).loc main_arg0)) (m ((c : Thread nD τ).loc main_arg1))
            (m ((c : Thread nD τ).loc main_arg6)) (m ((c : Thread nD τ).loc main_arg3)) (m ((c : Thread nD τ).loc main_arg4))
            (m ((c : Thread nD τ).loc main_arg5)))
          (m ((c : Thread nD τ).loc main_arg7)) (m ((c : Thread nD τ).loc main_arg8)) := by
  refine ((W4_arr m ρ c 5).trans (Neurons.state_array (V3 m ρ) c)).trans ?_
  rw [entry1_arg1, entry1_v21, entry1_arg7, entry1_arg8]

end Cert.KernelIdeal.Chain

end
-- ==== Proof.RefArrays.lean ====
/-
  The reference's two results as the same array functions.

  The reference computes, with host operations only: the two gathers along the edges, the product of gathered
  output and weight (the weights laid out as one row and repeated down the rows) times the host sign of output
  minus state, the scatter-add into the chemical influence, the clamp of state plus influence, the new output
  as the clamped sum less the threshold cut off at zero, and the new state by two selections. Read one operation
  at a time at an index, its edge contributions are `contribArr` of the two gathers and the weights, and its two
  results are `fireArr` and `stateArr` of the states, the scatter-add's result, the thresholds and the decays.
-/
import proofs.«145983_j32658931319601_1_alg».proof.Proof.Gen.ReferenceIdeal.Read
import proofs.«145983_j32658931319601_1_alg».proof.Proof.Neuron

set_option maxRecDepth 16384

noncomputable section

namespace Cert.ReferenceIdeal.Arrays

open Cert.ReferenceIdeal Cert.ReferenceIdeal.Gen Cert.ReferenceIdeal.Read Cert.GapJunction
open Idealize.ShloMosaic Idealize.ShloMosaic.TcCoe Idealize.SL.Sem Idealize.ShloMosaic.ValueIdx

variable (x0 x1 x6 : (⟨S8x100000, .f32⟩ : BufTy).Contents (Elt Ideal)) (x3 x4 : (⟨S3200000, .i32⟩ : BufTy).Contents (Elt Ideal)) (x5 : (⟨S3200000, .f32⟩ : BufTy).Contents (Elt Ideal)) (x7 x8 : (⟨S100000, .f32⟩ : BufTy).Contents (Elt Ideal))

/-- A vector laid out as one row and repeated down the rows is read, at an index, at the index's last coordinate. -/
theorem last_v14 (i : S8x3200000.Idx) : idx_main_v14 (idx_main_v15 i) = lastOf i :=
  funext fun a => match a with | ⟨0, _⟩ => rfl
theorem last_v29 (i : S8x100000.Idx) : idx_main_v29 (idx_main_v30 i) = lastOf i :=
  funext fun a => match a with | ⟨0, _⟩ => rfl
theorem last_v35 (i : S8x100000.Idx) : idx_main_v35 (idx_main_v36 i) = lastOf i :=
  funext fun a => match a with | ⟨0, _⟩ => rfl
theorem last_v39 (i : S8x100000.Idx) : idx_main_v39 (idx_main_v40 i) = lastOf i :=
  funext fun a => match a with | ⟨0, _⟩ => rfl

/-- The reference's edge contributions are `contribArr` of its two gathers and the weights. -/
theorem contrib_eq :
    val_main_v19 (F := Ideal) x1 x3 x4 x5 x6
      = contribArr (n0 := 8) (n1 := 3200000) (val_main_v6 (F := Ideal) x3 x6) (val_main_v13 (F := Ideal) x1 x4) x5 := by
  funext i
  rw [val_main_v19_apply, val_main_v16_apply, val_main_v18_apply, val_main_v17_apply, val_main_v15_apply,
    val_main_v14_apply, last_v14]
  rfl

/-- The reference's clamped sum at an index. -/
theorem clip_eq (i : S8x100000.Idx) :
    val_main_v28 (F := Ideal) x0 x1 x3 x4 x5 x6 i
      = clip (FloatOps.addf (x1 i) (val_main_v26 (F := Ideal) x0 x1 x3 x4 x5 x6 i)) := by
  rw [val_main_v28_apply, val_main_call0_v4_apply, val_main_call0_v3_apply, val_main_cst_5_apply,
    val_main_call0_v2_apply, val_main_call0_v1_apply, val_main_call0_v0_apply, val_main_cst_apply, val_main_v27_apply]
  rfl

/-- The reference's first result is `fireArr` of the states, the scatter-add's result and the thresholds. -/
theorem fire_eq :
    val_main_v38 (F := Ideal) x0 x1 x3 x4 x5 x6 x7
      = fireArr (n0 := 8) (n1 := 100000) x1 (val_main_v26 (F := Ideal) x0 x1 x3 x4 x5 x6) x7 := by
  funext i
  rw [val_main_v38_apply, val_main_v37_apply, clip_eq, val_main_v36_apply, val_main_v35_apply, last_v35,
    val_main_call1_v0_apply, val_main_call1_cst_apply]
  rfl

/-- The reference's second result is `stateArr` of the same with the decays. -/
theorem state_eq :
    val_main_v43 (F := Ideal) x0 x1 x3 x4 x5 x6 x7 x8
      = stateArr (n0 := 8) (n1 := 100000) x1 (val_main_v26 (F := Ideal) x0 x1 x3 x4 x5 x6) x7 x8 := by
  funext i
  rw [val_main_v43_apply, val_main_v42_apply, val_main_v34_apply, val_main_v32_apply, val_main_v31_apply,
    val_main_v33_apply, val_main_v41_apply, val_main_v40_apply, val_main_v39_apply, last_v39,
    val_main_v30_apply, val_main_v29_apply, last_v29, clip_eq, congrFun (fire_eq x0 x1 x6 x3 x4 x5 x7) i]
  rfl

end Cert.ReferenceIdeal.Arrays

end
-- ==== Proof.lean ====
/-
  One step of a gap-junction network, as a kernel and as its reference: the two compute the same arrays.

  Every edge contributes its presynaptic output times its weight, signed by whether that output exceeds the
  postsynaptic state; the contributions are added into the chemical influence at the postsynaptic neurons; every
  neuron then clamps its state plus the total influence to [-10, 10], fires the clamped sum less its threshold cut
  off at zero, and takes its new state by comparing the clamped sum with the threshold and with its old state.

  The kernel does the gathers and the scatter-add on the host and the two elementwise passes in two regions, the
  first over 25 column blocks of the edges, the second over the whole arrays in one block; the reference does
  everything on the host. At the extended reals both are the same three scalar functions (Neuron.lean) applied at
  every index around the same gathers and the same scatter-add: the kernel's side is read off its run
  (KernelRun.lean: the run with the results named; EdgeRegion.lean and UpdateRegion.lean: each region's result as
  one array function; HostChain.lean: the four segments composed), the reference's off its operations one at a time
  (RefArrays.lean). The kernel's sign, spelt by a comparison with zero selected where the magnitude is positive, is
  the sign function on every extended real, and its complement of a comparison bit by exclusive-or is the
  complement; no other law is used, so the finiteness of the inputs is never opened.
-/
import proofs.«145983_j32658931319601_1_alg».proof.Defs
import proofs.«145983_j32658931319601_1_alg».proof.Proof.Gen.Kernel
import proofs.«145983_j32658931319601_1_alg».proof.Proof.Gen.Kernel.Skeleton
import proofs.«145983_j32658931319601_1_alg».proof.Proof.Gen.Kernel.Launch
import proofs.«145983_j32658931319601_1_alg».proof.Proof.Gen.Kernel.Points
import proofs.«145983_j32658931319601_1_alg».proof.Proof.Gen.Kernel.Frame
import proofs.«145983_j32658931319601_1_alg».proof.Proof.Gen.KernelIdeal
import proofs.«145983_j32658931319601_1_alg».proof.Proof.Gen.KernelIdeal.Skeleton
import proofs.«145983_j32658931319601_1_alg».proof.Proof.Gen.KernelIdeal.Launch
import proofs.«145983_j32658931319601_1_alg».proof.Proof.Gen.KernelIdeal.Points
import proofs.«145983_j32658931319601_1_alg».proof.Proof.Gen.KernelIdeal.Frame
import proofs.«145983_j32658931319601_1_alg».proof.Proof.Gen.ReferenceIdeal
import proofs.«145983_j32658931319601_1_alg».proof.Proof.Gen.ReferenceIdeal.Run
import proofs.«145983_j32658931319601_1_alg».proof.Proof.Gen.ReferenceIdeal.Read
import proofs.«145983_j32658931319601_1_alg».proof.Proof.Gen.Pre_finite_inputs
import proofs.«145983_j32658931319601_1_alg».proof.Proof.Neuron
import proofs.«145983_j32658931319601_1_alg».proof.Proof.KernelRun
import proofs.«145983_j32658931319601_1_alg».proof.Proof.HostChain
import proofs.«145983_j32658931319601_1_alg».proof.Proof.RefArrays
import Idealize.ShloMosaic.Adequacy
import Idealize.ShloMosaic.Init

set_option maxRecDepth 16384

noncomputable section

namespace Cert.Proof

open Idealize.ShloMosaic Idealize.SL.Sem Cert.GapJunction

/-- The total influence is one array in both programs' spellings: the same scatter-add, at the same wrapped indices,
    of the same edge contributions of the same two gathers. -/
theorem influence_same (x0 x1 x6 : (⟨Cert.KernelIdeal.S8x100000, .f32⟩ : BufTy).Contents (Elt Ideal))
    (x3 x4 : (⟨Cert.KernelIdeal.S3200000, .i32⟩ : BufTy).Contents (Elt Ideal)) (x5 : (⟨Cert.KernelIdeal.S3200000, .f32⟩ : BufTy).Contents (Elt Ideal)) :
    Cert.ReferenceIdeal.Read.val_main_v26 (F := Ideal) x0 x1 x3 x4 x5 x6 = Cert.KernelIdeal.Chain.influence x0 x1 x6 x3 x4 x5 := by
  unfold Cert.ReferenceIdeal.Read.val_main_v26
  rw [Cert.ReferenceIdeal.Arrays.contrib_eq]
  rfl

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- The idealization's one rewrite: the word "1.0 with the sign bit of x" is read as -1 below zero and 1 elsewhere. -/
theorem preserves : Cert.preserves_Kernel_KernelIdeal := IdealRules.sign_bit.statement Cert.KernelIdeal.S8x128000 .f32

/-- The idealized kernel ends with the new outputs and the new states of its arguments. -/
theorem kernel_values (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v22_0)
        = fireArr (n0 := 8) (n1 := 100000) (m ((c.tc : Thread Cert.KernelIdeal.nD Cert.KernelIdeal.τ).loc Cert.KernelIdeal.main_arg1)) (Cert.KernelIdeal.Chain.influence (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_v22_1)
        = stateArr (n0 := 8) (n1 := 100000) (m ((c.tc : Thread Cert.KernelIdeal.nD Cert.KernelIdeal.τ).loc Cert.KernelIdeal.main_arg1)) (Cert.KernelIdeal.Chain.influence (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono
    (fun r h c => ⟨(h c).1.trans (Cert.KernelIdeal.Chain.new_outputs m ρ c), (h c).2.1.trans (Cert.KernelIdeal.Chain.new_states m ρ c), (h c).2.2⟩)
    (Cert.KernelIdeal.Outputs.run m ρ)

/-- From memories that agree on the arguments the reference ends with the same two arrays: its results are the same
    functions of its states, its total influence, its thresholds and its decays, and its total influence is the kernel's. -/
theorem algebraic : Cert.algebraic_KernelIdeal_ReferenceIdeal := by
  intro m ρ m' ρ' _ hagree
  refine ⟨_, _, kernel_values m ρ, ?_⟩
  refine (θ_run Cert.ReferenceIdeal.defs _ _).mono (fun r h c => ⟨?_, ?_, (h c).2.2⟩) (Cert.ReferenceIdeal.Value.run (F := Ideal) m' ρ')
  · obtain ⟨a0, a1, a2, a3, a4, a5, a6, a7, a8⟩ := hagree c
    rw [(h c).1, Cert.ReferenceIdeal.Read.val_main_v38_eq, Cert.ReferenceIdeal.Arrays.fire_eq, influence_same, a0, a1, a3, a4, a5, a6, a7]
  · obtain ⟨a0, a1, a2, a3, a4, a5, a6, a7, a8⟩ := hagree c
    rw [(h c).2.1, Cert.ReferenceIdeal.Read.val_main_v43_eq, Cert.ReferenceIdeal.Arrays.state_eq, influence_same, a0, a1, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
